-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S1 : Shape := ⟨1, ![1]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S4x2048x4096 .f32) (main_arg1 : FVec F S16384x4096 .f32) (main_arg2 : FVec F S1 .f32) (main_arg3 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S4x2048x4096 : Shape := ⟨3, ![4, 2048, 4096]⟩
abbrev S16384x4096 : Shape := ⟨2, ![16384, 4096]⟩
abbrev S1 : Shape := ⟨1, ![1]⟩
abbrev S16384 : Shape := ⟨1, ![16384]⟩
abbrev S_ : Shape := ⟨0, ![]⟩
abbrev S8192x4096 : Shape := ⟨2, ![8192, 4096]⟩
abbrev S1x16384 : Shape := ⟨2, ![1, 16384]⟩
abbrev S8192x16384 : Shape := ⟨2, ![8192, 16384]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩
abbrev S4x2048x16384 : Shape := ⟨3, ![4, 2048, 16384]⟩

abbrev nBuf : Space → Nat
  | .hbm => 13
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S1, .f32⟩
  | .hbm, ⟨3, _⟩ => ⟨S16384, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .bf16⟩
  | .hbm, ⟨9, _⟩ => ⟨S16384x4096, .bf16⟩
  | .hbm, ⟨10, _⟩ => ⟨S1x16384, .f32⟩
  | .hbm, ⟨11, _⟩ => ⟨S8192x16384, .f32⟩
  | .hbm, ⟨12, _⟩ => ⟨S4x2048x16384, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1_S_ : S1.ShapeCasts S_
  shapeCasts_S4x2048x4096_S8192x4096 : S4x2048x4096.ShapeCasts S8192x4096
  bcast_S_S8192x4096 : S_.BroadcastsInDim S8192x4096 (![] : Fin 0 → Fin S8192x4096.rank)
  bitsLt_bf16_f32 : FTy.bits .bf16 < FTy.bits .f32
  shapeCasts_S16384_S1x16384 : S16384.ShapeCasts S1x16384
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x16384_S4x2048x16384 : S8192x16384.ShapeCasts S4x2048x16384
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .bf16 = 32 ∨ (Rect.block (s := S16384x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x16384.size a
  hwx0_3 : ∀ i : grid0.Coords, EltTy.bits .f32 = 32 ∨ (Rect.block (s := S8192x16384) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v4) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S1 : Shape := ⟨1, ![1]⟩
abbrev S16384 : Shape := ⟨1, ![16384]⟩
abbrev S_ : Shape := ⟨0, ![]⟩
abbrev S4x2048x16384 : Shape := ⟨3, ![4, 2048, 16384]⟩
abbrev S1x1x16384 : Shape := ⟨3, ![1, 1, 16384]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S1, .f32⟩
  | .hbm, ⟨3, _⟩ => ⟨S16384, .f32⟩
  | .hbm, ⟨4, _⟩ => ⟨S_, .f32⟩
  | .hbm, ⟨5, _⟩ => ⟨S4x2048x4096, .f32⟩
  | .hbm, ⟨6, _⟩ => ⟨S4x2048x4096, .f32⟩
  | .hbm, ⟨7, _⟩ => ⟨S4x2048x16384, .f32⟩
  | .hbm, ⟨8, _⟩ => ⟨S1x1x16384, .f32⟩
  | .hbm, ⟨9, _⟩ => ⟨S4x2048x16384, .f32⟩
  | .hbm, ⟨10, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  shapeCasts_S1_S_ : S1.ShapeCasts S_
  bcast_S_S4x2048x4096 : S_.BroadcastsInDim S4x2048x4096 (![] : Fin 0 → Fin S4x2048x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Layer.lean ====
/-
  The scaled linear layer, as one function of the four argument arrays.

  For an input `x : [4, 2048, 4096]`, a weight matrix `w : [16384, 4096]`, a one-element scale `s : [1]` and a bias
  `b : [16384]`, entry `(β, σ, o)` of the result is

      ( ∑ k < 4096, (x[β, σ, k] · s[0]) · w[o, k] ) + b[o]

  over the extended reals: the input scaled entrywise, contracted with the weight rows along the feature axis, plus the bias
  of the output feature. Both programs compute exactly this sum in this grouping, so no law beyond the re-indexing of the
  sum is needed, and no finiteness of the inputs.
-/
import Idealize.ShloMosaic.Lib.ValueIdx
import Idealize.ShloMosaic.PureOps.Ideal

noncomputable section

open scoped BigOperators

namespace Cert.ScaledLinear

open Idealize.ShloMosaic Idealize.ShloMosaic.ValueIdx

/-- Entry `(β, σ, o)` of the layer: the scaled input row `(β, σ)` against weight row `o`, plus bias `o`. -/
def layer (x : FVec Ideal ⟨3, ![4, 2048, 4096]⟩ .f32) (w : FVec Ideal ⟨2, ![16384, 4096]⟩ .f32)
    (s : FVec Ideal ⟨1, ![1]⟩ .f32) (b : FVec Ideal ⟨1, ![16384]⟩ .f32) : FVec Ideal ⟨3, ![4, 2048, 16384]⟩ .f32 :=
  fun i => (∑ k : Fin 4096, x (ix3 (i 0) (i 1) k) * s (ix1 (0 : Fin 1)) * w (ix2 (i 2) k)) + b (ix1 (i 2))

/-- The same layer over the flattened rows: for `X : [8192, 4096]` (already scaled), `W : [16384, 4096]` and a one-row
    bias `B : [1, 16384]`, entry `(r, o)` is `(∑ k, X[r, k] · W[o, k]) + B[0, o]`. This is what the grid of blocks
    assembles; `layer` is it read through the row-major flattening `r = β · 2048 + σ`. -/
def flatLayer (X : FVec Ideal ⟨2, ![8192, 4096]⟩ .bf16) (W : FVec Ideal ⟨2, ![16384, 4096]⟩ .bf16)
    (B : FVec Ideal ⟨2, ![1, 16384]⟩ .f32) : FVec Ideal ⟨2, ![8192, 16384]⟩ .f32 :=
  fun i => (∑ k : Fin 4096, X (ix2 (i 0) k) * W (ix2 (i 1) k)) + B (ix2 (0 : Fin 1) (i 1))

end Cert.ScaledLinear

end
-- ==== Proof.ReferenceLayer.lean ====
/-
  The reference computes the layer.

  The reference scales the input by the one-element scale (broadcast from a scalar), contracts the feature axis against
  the weight rows with one `dot_general`, and adds the bias broadcast over the leading two axes. Read at an index
  `(β, σ, o)` through the stage-by-stage lemmas of the generated module this is
  `(∑ k, (x[β, σ, k] · s[0]) · w[o, k]) + b[o]`: the layer, term for term.
-/
import proofs.«113325_j40664750358528_2_alg».proof.Proof.Gen.ReferenceIdeal.Read
import proofs.«113325_j40664750358528_2_alg».proof.Proof.Layer

noncomputable section

open scoped BigOperators

namespace Cert.ReferenceIdeal.LayerValue

open Cert.ReferenceIdeal Cert.ReferenceIdeal.Gen Cert.ReferenceIdeal.Read Idealize.ShloMosaic Idealize.ShloMosaic.ValueIdx Cert.ScaledLinear

/-- The one element of a `[1]` array, viewed as a scalar. -/
theorem scalar_apply (s : (⟨S1, .f32⟩ : BufTy).Contents (Elt Ideal)) (j : S_.Idx) :
    val_main_v0 (F := Ideal) s j = s (ix1 (0 : Fin 1)) := by
  unfold val_main_v0
  refine shapeCast_apply s shapeCasts_S1_S_ j (ix1 (0 : Fin 1)) ?_
  rw [Shape.rowMajor_val_one]
  have h := (S_.rowMajor j).isLt
  have h1 : S_.numel = 1 := by decide
  show 0 = (S_.rowMajor j).val
  omega

/-- The left operand's index at contracted position `k` is `(β, σ, k)`. -/
theorem lidx_eq (i : S4x2048x16384.Idx) (k : Fin 4096) : lidx_main_v3 i k = ix3 (i 0) (i 1) k :=
  funext fun a => by match a with | ⟨0, _⟩ => rfl | ⟨1, _⟩ => rfl | ⟨2, _⟩ => rfl

/-- The right operand's index at contracted position `k` is `(o, k)`. -/
theorem ridx_eq (i : S4x2048x16384.Idx) (k : Fin 4096) : ridx_main_v3 i k = ix2 (i 2) k :=
  funext fun a => by match a with | ⟨0, _⟩ => rfl | ⟨1, _⟩ => rfl

/-- The bias, broadcast twice, is read at the output feature. -/
theorem bias_idx_eq (i : S4x2048x16384.Idx) : idx_main_v4 (idx_main_v5 i) = ix1 (i 2) :=
  funext fun a => by match a with | ⟨0, _⟩ => rfl

/-- THE REFERENCE IS THE LAYER: its last stage, as a function of the four arguments, index by index. -/
theorem reference_eq (x : (⟨S4x2048x4096, .f32⟩ : BufTy).Contents (Elt Ideal)) (w : (⟨S16384x4096, .f32⟩ : BufTy).Contents (Elt Ideal))
    (s : (⟨S1, .f32⟩ : BufTy).Contents (Elt Ideal)) (b : (⟨S16384, .f32⟩ : BufTy).Contents (Elt Ideal)) :
    val_main_v6 (F := Ideal) x w s b = layer x w s b := by
  funext i
  rw [val_main_v6_apply, val_main_v3_apply, val_main_v5_apply, val_main_v4_apply, bias_idx_eq]
  unfold layer
  refine congrArg (· + b (ix1 (i 2))) (Finset.sum_congr rfl fun k _ => ?_)
  rw [val_main_v2_apply, val_main_v1_apply, scalar_apply, lidx_eq, ridx_eq]
  rfl

end Cert.ReferenceIdeal.LayerValue

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.BlockProduct.lean ====
/-
  One grid point's output block, read entry by entry.

  At a grid point the body holds a `1024 × 4096` block `a` of the (scaled) input rows, a `512 × 4096` block `b` of weight
  rows and a `1 × 512` block `β` of the bias, and stores `a · bᵀ + β` (the bias row broadcast down the 1024 rows).
  Entry `(p, q)` of what it stores is therefore

      ( ∑ k < 4096, a[p, k] · b[q, k] ) + β[0, q]

  over the extended reals: the product contracts the second axis of BOTH operands into a zero accumulator, so it is the plain
  sum, and the identity shape casts around the loads drop out.
-/
import proofs.«113325_j40664750358528_2_alg».proof.Proof.Gen.KernelIdeal.Skeleton
import proofs.«113325_j40664750358528_2_alg».proof.Proof.LibMatmulZero
import Idealize.ShloMosaic.Lib.Pipeline.Value
import Idealize.ShloMosaic.Lib.ValueLayout

noncomputable section

open scoped BigOperators

namespace Cert.KernelIdeal.BlockValue

open Cert.KernelIdeal Cert.KernelIdeal.Gen Idealize.ShloMosaic Idealize.ShloMosaic.ValueIdx

/-- The left operand keeps the output's row on its first axis … -/
theorem lhs_row (j : S1024x512.Idx) (κ : dot_S1024x4096_S512x4096_S1024x512_1_1_0_0_n_n.contr.Idx) :
    (dot_S1024x4096_S512x4096_S1024x512_1_1_0_0_n_n.lhsIdx j κ 0).val = (j 0).val := by
  unfold DotDims.lhsIdx
  rw [dif_neg (show ¬(0 : Fin S1024x4096.rank) ∈ dot_S1024x4096_S512x4096_S1024x512_1_1_0_0_n_n.lhsBatch by decide),
    dif_pos (show (0 : Fin S1024x4096.rank) ∈ dot_S1024x4096_S512x4096_S1024x512_1_1_0_0_n_n.lhsNonContracting by decide)]
  rfl
/-- … and carries the contracted position on its second. -/
theorem lhs_contr (j : S1024x512.Idx) (κ : dot_S1024x4096_S512x4096_S1024x512_1_1_0_0_n_n.contr.Idx) :
    (dot_S1024x4096_S512x4096_S1024x512_1_1_0_0_n_n.lhsIdx j κ 1).val = (κ ⟨0, by decide⟩).val :=
  dot_S1024x4096_S512x4096_S1024x512_1_1_0_0_n_n.lhsIdx_val_of_single rfl j κ
/-- The right operand keeps the output's COLUMN on its first axis (it is contracted along its rows' entries) … -/
theorem rhs_row (j : S1024x512.Idx) (κ : dot_S1024x4096_S512x4096_S1024x512_1_1_0_0_n_n.contr.Idx) :
    (dot_S1024x4096_S512x4096_S1024x512_1_1_0_0_n_n.rhsIdx j κ 0).val = (j 1).val := by
  unfold DotDims.rhsIdx
  rw [dif_neg (show ¬(0 : Fin S512x4096.rank) ∈ dot_S1024x4096_S512x4096_S1024x512_1_1_0_0_n_n.rhsBatch by decide),
    dif_pos (show (0 : Fin S512x4096.rank) ∈ dot_S1024x4096_S512x4096_S1024x512_1_1_0_0_n_n.rhsNonContracting by decide)]
  rfl
/-- … and carries the contracted position on its second. -/
theorem rhs_contr (j : S1024x512.Idx) (κ : dot_S1024x4096_S512x4096_S1024x512_1_1_0_0_n_n.contr.Idx) :
    (dot_S1024x4096_S512x4096_S1024x512_1_1_0_0_n_n.rhsIdx j κ 1).val = (κ ⟨0, by decide⟩).val :=
  dot_S1024x4096_S512x4096_S1024x512_1_1_0_0_n_n.rhsIdx_val_of_single rfl j κ

/-- The product of a row block with a weight-row block, into zero, at `(p, q)`: row `p` against weight row `q`. -/
theorem product_apply (a : FVec Ideal S1024x4096 .bf16) (b : FVec Ideal S512x4096 .bf16) (p : Fin 1024) (q : Fin 512) :
    FloatOps.matmul dot_S1024x4096_S512x4096_S1024x512_1_1_0_0_n_n none a b (constant (F := Ideal) S1024x512 .f32 0x00000000#32) (ix2 p q)
      = ∑ k : Fin 4096, a (ix2 p k) * b (ix2 q k) :=
  Cert.LibMatmulZero.matmul_zero_apply dot_S1024x4096_S512x4096_S1024x512_1_1_0_0_n_n 4096 rfl rfl a b (ix2 p q)
    (fun k => ix2 p k) (fun k => ix2 q k)
    (fun k ax => by
      match ax with
      | ⟨0, _⟩ => exact lhs_row _ _
      | ⟨1, _⟩ => exact (lhs_contr _ _).trans (contrEquiv1_symm_val dot_S1024x4096_S512x4096_S1024x512_1_1_0_0_n_n 4096 rfl rfl k))
    (fun k ax => by
      match ax with
      | ⟨0, _⟩ => exact rhs_row _ _
      | ⟨1, _⟩ => exact (rhs_contr _ _).trans (contrEquiv1_symm_val dot_S1024x4096_S512x4096_S1024x512_1_1_0_0_n_n 4096 rfl rfl k))

/-- WHAT THE BODY STORES, at `(p, q)`: row `p` of the input block against row `q` of the weight block, plus the bias
    block's entry `q`. -/
theorem block_apply (a : Vec Ideal S1024x4096 .bf16) (b : Vec Ideal S512x4096 .bf16) (β : Vec Ideal S1x512 .f32)
    (p : Fin 1024) (q : Fin 512) :
    k0_pay1 (F := Ideal) a b β (ix2 p q) = (∑ k : Fin 4096, a (ix2 p k) * b (ix2 q k)) + β (ix2 (0 : Fin 1) q) := by
  unfold k0_pay1
  simp only [shapeCast_self]
  refine congrArg₂ (· + ·) (product_apply a b p q) ?_
  exact broadcastTo_1b_ab_apply β broadcasts_S1x512_S1024x512 p q

end Cert.KernelIdeal.BlockValue

end
-- ==== Proof.GridAssembly.lean ====
/-
  The grid assembles the flat layer.

  The grid has `8 × 32` points. Point `(g, h)` reads rows `g · 1024 … g · 1024 + 1023` of the scaled input rows (all 4096
  features), weight rows `h · 512 … h · 512 + 511` (all 4096 features) and bias entries `h · 512 … h · 512 + 511`, and
  writes the `1024 × 512` block at rows `g · 1024 …`, columns `h · 512 …` of the `[8192, 16384]` result. Since entry
  `(p, q)` of a block is row `p` of its input block against row `q` of its weight block plus bias entry `q`, what the
  point writes is exactly its block of the flat layer; the `8 × 32` blocks tile the result, so the result IS the flat layer.
-/
import proofs.«113325_j40664750358528_2_alg».proof.Proof.Gen.KernelIdeal.Frame
import proofs.«113325_j40664750358528_2_alg».proof.Proof.BlockProduct
import proofs.«113325_j40664750358528_2_alg».proof.Proof.Layer
import Idealize.ShloMosaic.Lib.Pipeline.Value
import Idealize.ShloMosaic.Lib.ValueIdx

set_option maxRecDepth 16384

noncomputable section

open scoped BigOperators

namespace Cert.KernelIdeal.GridValue

open Cert.KernelIdeal Cert.KernelIdeal.Gen Idealize.ShloMosaic Idealize.ShloMosaic.TcCoe Idealize.SL.Sem
open Idealize.ShloMosaic.ValueIdx Idealize.ShloMosaic.Pipeline Cert.ScaledLinear

variable (m : (ℓ : Loc nD τ sig) → Buf (Elt Ideal) ℓ)

theorem zero_offsets : (![0, 0] : Fin 2 → Nat) = fun _ => 0 := funext fun a => by fin_cases a <;> rfl

/-- One entry of a point's block against one entry of the flat layer: if row `j 0` of the input block is row `i 0` of the
    rows, row `j 1` of the weight block is weight row `i 1`, and bias-block entry `j 1` is bias entry `i 1`, the block's
    entry `j` is the flat layer's entry `i`. -/
theorem entry_eq (A : FVec Ideal S8192x4096 .bf16) (B : FVec Ideal S16384x4096 .bf16) (C : FVec Ideal S1x16384 .f32)
    (a : Vec Ideal S1024x4096 .bf16) (b : Vec Ideal S512x4096 .bf16) (β : Vec Ideal S1x512 .f32)
    (j : S1024x512.Idx) (i : S8192x16384.Idx)
    (ha : ∀ k : Fin 4096, a (ix2 (j 0) k) = A (ix2 (i 0) k))
    (hb : ∀ k : Fin 4096, b (ix2 (j 1) k) = B (ix2 (i 1) k))
    (hβ : β (ix2 (0 : Fin 1) (j 1)) = C (ix2 (0 : Fin 1) (i 1))) :
    k0_pay1 (F := Ideal) a b β j = flatLayer A B C i := by
  obtain ⟨p, q, rfl⟩ : ∃ (p : Fin 1024) (q : Fin 512), j = ix2 p q := ⟨j 0, j 1, eq_ix2 j⟩
  rw [BlockValue.block_apply]
  unfold flatLayer
  refine congrArg₂ (· + ·) (Finset.sum_congr rfl fun k _ => ?_) hβ
  rw [ha k, hb k]

/-- The printed index maps, decided over the 256 points: the input rows move with the output's block row, the weight rows
    and the bias with its block column, and the feature axis is never split. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2) :=
  (by decide +kernel : ∀ t : Fin grid0.N, _)

/-- Every one of the `8 × 32` blocks is some point's. -/
theorem idx_onto : ∀ (g : Fin 8) (h : Fin 32), ∃ t : Fin cfg0.N, win0_3.index t = ![g.val, h.val] :=
  (by decide +kernel : ∀ (g : Fin 8) (h : Fin 32), ∃ t : Fin grid0.N, win0_3.index t = ![g.val, h.val])

/-- WHAT POINT `t` WRITES BACK is block `t` of the flat layer of the three arrays as the grid finds them. -/
theorem flushed_eq (c : Dev nD) (t : Fin cfg0.N) :
    (dats m 0 c).flushed 3 t
      = ((cfg0.win 3).blk t).view.read (Elt Ideal) (flatLayer (V m c main_v4) (V m c main_v5) (V m c main_v6)) := by
  show (cfg0.win 3).cut (grid0.coords t) ((dats m 0 c).after 3 t) = _
  rw [after0_3]
  unfold out0_3
  rw [View.canon_unit_zero zero_offsets]
  simp only [View.ld_unit_zero (S := S1024x4096) zero_offsets, View.ld_unit_zero (S := S512x4096) zero_offsets,
    View.ld_unit_zero (S := S1x512) zero_offsets]
  obtain ⟨e0, e1, e2, e3, e4, e5⟩ := idx_facts t
  funext j
  show k0_pay1 (F := Ideal) (iblk m c 0 t) (iblk m c 1 t) (iblk m c 2 t) j
    = flatLayer (V m c main_v4) (V m c main_v5) (V m c main_v6) (((cfg0.win 3).blk t).view.emb j)
  refine entry_eq (V m c main_v4) (V m c main_v5) (V m c main_v6) (iblk m c 0 t) (iblk m c 1 t) (iblk m c 2 t) j
    (((cfg0.win 3).blk t).view.emb j) (fun k => ?_) (fun k => ?_) ?_
  · show V m c main_v4 (((cfg0.win 0).blk t).view.emb (ix2 (j 0) k)) = V m c main_v4 (ix2 ((((cfg0.win 3).blk t).view.emb j) 0) k)
    refine congrArg (V m c main_v4) (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 4096 + 1 * k.val = k.val; omega
  · show V m c main_v5 (((cfg0.win 1).blk t).view.emb (ix2 (j 1) k)) = V m c main_v5 (ix2 ((((cfg0.win 3).blk t).view.emb j) 1) k)
    refine congrArg (V m c main_v5) (funext fun a => Fin.ext ?_)
    match a with
    | ⟨0, _⟩ => show win0_1.index t (0 : Fin 2) * 512 + 1 * (j 1).val = win0_3.index t (1 : Fin 2) * 512 + 1 * (j 1).val; omega
    | ⟨1, _⟩ => show win0_1.index t (1 : Fin 2) * 4096 + 1 * k.val = k.val; omega
  · show V m c main_v6 (((cfg0.win 2).blk t).view.emb (ix2 (0 : Fin 1) (j 1))) = V m c main_v6 (ix2 (0 : Fin 1) ((((cfg0.win 3).blk t).view.emb j) 1))
    refine congrArg (V m c main_v6) (funext fun a => Fin.ext ?_)
    match a with
    | ⟨0, _⟩ => show win0_2.index t (0 : Fin 2) * 1 + 1 * 0 = 0; omega
    | ⟨1, _⟩ => show win0_2.index t (1 : Fin 2) * 512 + 1 * (j 1).val = win0_3.index t (1 : Fin 2) * 512 + 1 * (j 1).val; omega

/-- An index of the result is in point `t`'s block iff each coordinate is in the block's range on its axis. -/
theorem mem_blk (t : Fin cfg0.N) (i : S8192x16384.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v7).slice (win0_3.rect t)).set ↔ _
  rw [View.set_slice_whole, Rect.mem_set_unit]
  exact Iff.rfl

/-- THE BLOCKS TILE THE RESULT: entry `(r, o)` lies in the block of the point with block row `r / 1024` and block column
    `o / 512`. -/
theorem covered (i : S8192x16384.Idx) :
    ∃ t : Fin cfg0.N, (cfg0.win 3).flush t = true ∧ i ∈ ((cfg0.win 3).blk t).view.set := by
  have hi0 : (i 0).val < 8192 := (i 0).isLt
  have hi1 : (i 1).val < 16384 := (i 1).isLt
  obtain ⟨t, ht⟩ := idx_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- THE RESULT ARRAY after the grid is the flat layer of the three arrays the grid read. -/
theorem final (c : Dev nD) :
    (dats m 0 c).arrAt 3 cfg0.N = flatLayer (V m c main_v4) (V m c main_v5) (V m c main_v6) :=
  (dats m 0 c).arrAt_eq_of_cover 3 _ (fun t _ => flushed_eq m c t) covered

end Cert.KernelIdeal.GridValue

end
-- ==== Proof.HostArrays.lean ====
/-
  The three arrays the grid reads, as the host lines before it leave them.

  Before the grid runs, the host flattens the input to `[8192, 4096]` rows (row `r = β · 2048 + σ`), multiplies every entry
  by the one-element scale, and narrows the float format of the scaled rows and of the weight matrix (the identity on the
  extended reals); the bias becomes a one-row matrix. Here each of the three arrays is stated as that composition of host
  operations applied to the argument arrays; what the compositions hold entry by entry is read in the module on flattening.
-/
import proofs.«113325_j40664750358528_2_alg».proof.Proof.Gen.KernelIdeal.Frame
import Idealize.ShloMosaic.Lib.StableHlo.Run
import Idealize.ShloMosaic.PureOps.Ideal

noncomputable section

namespace Cert.KernelIdeal.HostValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The scaled rows, as the composed host operations of the input and the scale. -/
theorem rows_eq (c : Dev nD) :
    (V m c main_v4 : S8192x4096.Idx → EReal)
      = truncf (F := Ideal) .bf16 (mulf (shapeCast _ (m ((c.tc : Thread nD τ).loc main_arg0)) shapeCasts_S4x2048x4096_S8192x4096)
          (broadcastInDim S8192x4096 ![] bcast_S_S8192x4096 (shapeCast _ (m ((c.tc : Thread nD τ).loc main_arg2)) shapeCasts_S1_S_))) bitsLt_bf16_f32 := by
  show StableHlo.after hostOps0 (fun b => m (c, b)) (Proc.devRef .tc main_v4) = _
  after_results <;> rfl

/-- The weight matrix, narrowed. -/
theorem weights_eq (c : Dev nD) :
    (V m c main_v5 : S16384x4096.Idx → EReal) = truncf (F := Ideal) .bf16 (m ((c.tc : Thread nD τ).loc main_arg1)) bitsLt_bf16_f32 := by
  show StableHlo.after hostOps0 (fun b => m (c, b)) (Proc.devRef .tc main_v5) = _
  after_results <;> rfl

/-- The bias as a one-row matrix. -/
theorem biasRow_eq (c : Dev nD) :
    (V m c main_v6 : S1x16384.Idx → EReal) = shapeCast _ (m ((c.tc : Thread nD τ).loc main_arg3)) shapeCasts_S16384_S1x16384 := by
  show StableHlo.after hostOps0 (fun b => m (c, b)) (Proc.devRef .tc main_v6) = _
  after_results <;> rfl

end Cert.KernelIdeal.HostValue

end
-- ==== Proof.Flattening.lean ====
/-
  The flat layer of the host-prepared arrays, un-flattened, is the layer.

  The host flattens the input to rows `r = β · 2048 + σ`, scales every entry by the one-element scale, narrows the float
  format (the identity on the extended reals), and makes the bias a one-row matrix; after the grid it views the
  `[8192, 16384]` result as `[4, 2048, 16384]`. Entry by entry, over the extended reals:

    rows[β · 2048 + σ, k] = x[β, σ, k] · s[0]        weights[o, k] = w[o, k]        biasRow[0, o] = b[o]
    result[β, σ, o]       = flat[β · 2048 + σ, o]

  so the un-flattened flat layer at `(β, σ, o)` is `(∑ k, (x[β, σ, k] · s[0]) · w[o, k]) + b[o]`.
-/
import proofs.«113325_j40664750358528_2_alg».proof.Proof.Gen.KernelIdeal
import proofs.«113325_j40664750358528_2_alg».proof.Proof.Layer
import Idealize.ShloMosaic.Lib.Pipeline.Value
import Idealize.ShloMosaic.Lib.ValueIdx
import Idealize.ShloMosaic.Lib.ValueLayout

noncomputable section

open scoped BigOperators

namespace Cert.KernelIdeal.FlatValue

open Cert.KernelIdeal Cert.KernelIdeal.Gen Idealize.ShloMosaic Idealize.ShloMosaic.ValueIdx Cert.ScaledLinear

/-- A `[1]` array viewed as a scalar holds its one element. -/
theorem scalar_apply (s : S1.Idx → EReal) (j : S_.Idx) : shapeCast S_ s shapeCasts_S1_S_ j = s (ix1 (0 : Fin 1)) := by
  refine shapeCast_apply s shapeCasts_S1_S_ j (ix1 (0 : Fin 1)) ?_
  rw [Shape.rowMajor_val_one]
  have h := (S_.rowMajor j).isLt
  have h1 : S_.numel = 1 := by decide
  show 0 = (S_.rowMajor j).val
  omega

/-- The flattened input at row `r = β · 2048 + σ` is the input at `(β, σ)`. -/
theorem flatten_apply (x : S4x2048x4096.Idx → EReal) (β : Fin 4) (σ : Fin 2048) (k : Fin 4096) (r : Fin 8192)
    (hr : r.val = β.val * 2048 + σ.val) :
    shapeCast S8192x4096 x shapeCasts_S4x2048x4096_S8192x4096 (ix2 r k) = x (ix3 β σ k) := by
  refine shapeCast_apply x shapeCasts_S4x2048x4096_S8192x4096 (ix2 r k) (ix3 β σ k) ?_
  rw [Shape.rowMajor_val_three, Shape.rowMajor_val_two]
  show (β.val * 2048 + σ.val) * 4096 + k.val = r.val * 4096 + k.val
  rw [hr]

/-- The scaled rows: entry `(r, k)` is `x[β, σ, k] · s[0]`, for `r = β · 2048 + σ`. -/
theorem scaledRows_apply (x : S4x2048x4096.Idx → EReal) (s : S1.Idx → EReal) (β : Fin 4) (σ : Fin 2048) (k : Fin 4096)
    (r : Fin 8192) (hr : r.val = β.val * 2048 + σ.val) :
    truncf (F := Ideal) .bf16 (mulf (F := Ideal) (φ := .f32) (shapeCast S8192x4096 x shapeCasts_S4x2048x4096_S8192x4096)
        (broadcastInDim S8192x4096 ![] bcast_S_S8192x4096 (shapeCast S_ s shapeCasts_S1_S_))) bitsLt_bf16_f32 (ix2 r k)
      = x (ix3 β σ k) * s (ix1 (0 : Fin 1)) := by
  show shapeCast S8192x4096 x shapeCasts_S4x2048x4096_S8192x4096 (ix2 r k)
      * broadcastInDim S8192x4096 ![] bcast_S_S8192x4096 (shapeCast S_ s shapeCasts_S1_S_) (ix2 r k) = _
  rw [flatten_apply x β σ k r hr,
    broadcastInDim_apply _ bcast_S_S8192x4096 (shapeCast S_ s shapeCasts_S1_S_) (ix2 r k) ix0 (fun a => a.elim0),
    scalar_apply]

/-- The one-row bias: entry `(0, o)` is `b[o]`. -/
theorem biasRow_apply (b : S16384.Idx → EReal) (o : Fin 16384) :
    shapeCast S1x16384 b shapeCasts_S16384_S1x16384 (ix2 (0 : Fin 1) o) = b (ix1 o) :=
  shapeCast_a_1a_apply b shapeCasts_S16384_S1x16384 (0 : Fin 1) o

/-- The result viewed as `[4, 2048, 16384]`: entry `(β, σ, o)` is the flat entry `(β · 2048 + σ, o)`. -/
theorem unflatten_apply (Y : S8192x16384.Idx → EReal) (i : S4x2048x16384.Idx) :
    shapeCast S4x2048x16384 Y shapeCasts_S8192x16384_S4x2048x16384 i
      = Y (ix2 (⟨(i 0).val * 2048 + (i 1).val, by have h0 : (i 0).val < 4 := (i 0).isLt; have h1 : (i 1).val < 2048 := (i 1).isLt; show _ < 8192; omega⟩ : Fin 8192) (i 2)) := by
  refine shapeCast_apply Y shapeCasts_S8192x16384_S4x2048x16384 i _ ?_
  rw [Shape.rowMajor_val_three, Shape.rowMajor_val_two]
  rfl

/-- THE FLAT LAYER OF THE HOST-PREPARED ARRAYS, UN-FLATTENED, IS THE LAYER. -/
theorem unflatten_flatLayer (x : FVec Ideal S4x2048x4096 .f32) (w : FVec Ideal S16384x4096 .f32) (s : FVec Ideal S1 .f32)
    (b : FVec Ideal S16384 .f32) :
    shapeCast S4x2048x16384
        (flatLayer
          (truncf (F := Ideal) .bf16 (mulf (F := Ideal) (φ := .f32) (shapeCast S8192x4096 x shapeCasts_S4x2048x4096_S8192x4096)
            (broadcastInDim S8192x4096 ![] bcast_S_S8192x4096 (shapeCast S_ s shapeCasts_S1_S_))) bitsLt_bf16_f32)
          (truncf (F := Ideal) .bf16 w bitsLt_bf16_f32)
          (shapeCast S1x16384 b shapeCasts_S16384_S1x16384))
        shapeCasts_S8192x16384_S4x2048x16384
      = layer x w s b := by
  funext i
  rw [unflatten_apply]
  unfold flatLayer layer
  refine congrArg₂ (· + ·) (Finset.sum_congr rfl fun k _ => ?_) (biasRow_apply b (i 2))
  exact congrArg (· * w (ix2 (i 2) k)) (scaledRows_apply x s (i 0) (i 1) k _ rfl)

end Cert.KernelIdeal.FlatValue

end
-- ==== Proof.KernelLayer.lean ====
/-
  The kernel program computes the layer.

  After the grid, one host line views the `[8192, 16384]` result as `[4, 2048, 16384]`: entry `(β, σ, o)` is the flat
  result's entry `(β · 2048 + σ, o)`. The flat result is the flat layer of the scaled rows, the weights and the bias row
  (the grid's assembly); the scaled rows at `(β · 2048 + σ, k)` are `x[β, σ, k] · s[0]`, the weights are the weight matrix and
  the bias row at `(0, o)` is `b[o]` (the host lines before the grid). So entry `(β, σ, o)` of the program's result is
  `(∑ k, (x[β, σ, k] · s[0]) · w[o, k]) + b[o]`: the layer.
-/
import proofs.«113325_j40664750358528_2_alg».proof.Proof.Gen.KernelIdeal.Frame
import proofs.«113325_j40664750358528_2_alg».proof.Proof.GridAssembly
import proofs.«113325_j40664750358528_2_alg».proof.Proof.HostArrays
import proofs.«113325_j40664750358528_2_alg».proof.Proof.Layer
import proofs.«113325_j40664750358528_2_alg».proof.Proof.Flattening
import Idealize.ShloMosaic.Lib.StableHlo.Run
import Idealize.ShloMosaic.Lib.Pipeline.Value
import Idealize.ShloMosaic.Lib.ValueIdx

noncomputable section

open scoped BigOperators

namespace Cert.KernelIdeal.LayerValue

open Cert.KernelIdeal Cert.KernelIdeal.Gen Idealize.ShloMosaic Idealize.ShloMosaic.TcCoe Idealize.SL.Sem
open Idealize.ShloMosaic.StableHlo Idealize.ShloMosaic.ValueIdx Cert.ScaledLinear

variable (m : (ℓ : Loc nD τ sig) → Buf (Elt Ideal) ℓ)

/-- The program's result buffer after the last host line: the grid's result array, viewed as `[4, 2048, 16384]`. -/
theorem result_eq_cast (c : Dev nD) :
    (Pipeline.afterTail₀ cfgs (dats m) 0 (V0 m) [hostOps1] c main_v8 : S4x2048x16384.Idx → EReal)
      = shapeCast S4x2048x16384 (flatLayer (V m c main_v4) (V m c main_v5) (V m c main_v6)) shapeCasts_S8192x16384_S4x2048x16384 := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v7)
      = flatLayer (V m c main_v4) (V m c main_v5) (V m c main_v6) :=
    (Pipeline.withArrays_arr spec0 launch0.win.arr_inj c _ _ 3).trans (GridValue.final m c)
  rw [e]
  rfl

/-- THE PROGRAM'S RESULT IS THE LAYER of its four argument arrays. -/
theorem result_eq (c : Dev nD) :
    (Pipeline.afterTail₀ cfgs (dats m) 0 (V0 m) [hostOps1] c main_v8 : S4x2048x16384.Idx → EReal)
      = layer (m ((c.tc : Thread nD τ).loc main_arg0)) (m ((c.tc : Thread nD τ).loc main_arg1))
          (m ((c.tc : Thread nD τ).loc main_arg2)) (m ((c.tc : Thread nD τ).loc main_arg3)) := by
  rw [result_eq_cast, HostValue.rows_eq, HostValue.weights_eq, HostValue.biasRow_eq]
  exact FlatValue.unflatten_flatLayer _ _ _ _

/-- THE RUN: every weakly fair execution of the program terminates with its result buffer at the layer of the argument
    arrays, and the argument arrays as they were. -/
theorem run (ρ : Dev nD → PrngReg) :
    θ_run defs (onTc (τ := τ) (main (F := Ideal))) ⟨m, fun _ => 0, ρ⟩ (fun r => ∀ c : Dev nD,
      r.2.mem ((c.tc : Thread nD τ).loc main_v8)
          = layer (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.LayerValue

end
-- ==== Proof.lean ====
/-
  A scaled linear layer computed block by block on a grid, against the same layer computed by one contraction.

  Both programs take an input `x : [4, 2048, 4096]`, a weight matrix `w : [16384, 4096]`, a one-element scale `s` and a
  bias `b : [16384]`, and produce `y : [4, 2048, 16384]` with

      y[β, σ, o] = ( ∑ k < 4096, (x[β, σ, k] · s[0]) · w[o, k] ) + b[o].

  The reference does so with one contraction over the feature axis. The kernel program flattens the leading two axes into
  8192 rows, scales, and runs a grid of `8 × 32` points, each multiplying a block of 1024 rows by a block of 512 weight rows
  (contracting all 4096 features at once, into a zero accumulator) and adding the matching 512 bias entries; the blocks tile
  the `[8192, 16384]` result, which is viewed back as `[4, 2048, 16384]`. Over the extended reals the narrowing of the
  float format before the grid is the identity, and both programs compute the same sum in the same grouping, term for term:
  no algebraic law beyond re-indexing the sum is used, and the inputs' finiteness is never needed.

  The modules: the layer as one function (Layer); the reference's stages read at an index (ReferenceLayer); one block's
  entries (BlockProduct); the blocks tiling the flat result (GridAssembly); the arrays the host lines prepare (HostArrays)
  and their entries (Flattening); the kernel program's run ending at the layer (KernelLayer). The idealization rewrote no
  operation, so the kernel program and its idealization are one text and that conjunct is trivial.
-/
import proofs.«113325_j40664750358528_2_alg».proof.Defs
import proofs.«113325_j40664750358528_2_alg».proof.Proof.Gen.Kernel
import proofs.«113325_j40664750358528_2_alg».proof.Proof.Gen.Kernel.Frame
import proofs.«113325_j40664750358528_2_alg».proof.Proof.Gen.KernelIdeal
import proofs.«113325_j40664750358528_2_alg».proof.Proof.Gen.KernelIdeal.Frame
import proofs.«113325_j40664750358528_2_alg».proof.Proof.Gen.ReferenceIdeal
import proofs.«113325_j40664750358528_2_alg».proof.Proof.Gen.ReferenceIdeal.Run
import proofs.«113325_j40664750358528_2_alg».proof.Proof.Gen.ReferenceIdeal.Read
import proofs.«113325_j40664750358528_2_alg».proof.Proof.Gen.Pre_finite_inputs
import proofs.«113325_j40664750358528_2_alg».proof.Proof.ReferenceLayer
import proofs.«113325_j40664750358528_2_alg».proof.Proof.KernelLayer

noncomputable section

namespace Cert.Proof

open Idealize.ShloMosaic Idealize.SL.Sem

/-- The kernel program as printed terminates without a fault and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the layer of their (agreeing) argument arrays. -/
theorem algebraic : Cert.algebraic_KernelIdeal_ReferenceIdeal := by
  intro m ρ m' ρ' _ hagree
  refine ⟨_, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.LayerValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
